-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S625000 : Shape := ⟨1, ![625000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S625000 32) (main_arg4 : IVec S625000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S10000x128 : Shape := ⟨2, ![10000, 128]⟩
abbrev S1x128 : Shape := ⟨2, ![1, 128]⟩

abbrev nBuf : Space → Nat
  | .hbm => 40
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S625000, .i32⟩
  | .hbm, ⟨4, _⟩ => ⟨S625000, .i32⟩
  | .hbm, ⟨5, _⟩ => ⟨S_, .i32⟩
  | .hbm, ⟨6, _⟩ => ⟨S625000, .i32⟩
  | .hbm, ⟨7, _⟩ => ⟨S625000, .i1⟩
  | .hbm, ⟨8, _⟩ => ⟨S_, .i32⟩
  | .hbm, ⟨9, _⟩ => ⟨S625000, .i32⟩
  | .hbm, ⟨10, _⟩ => ⟨S625000, .i32⟩
  | .hbm, ⟨11, _⟩ => ⟨S625000, .i32⟩
  | .hbm, ⟨12, _⟩ => ⟨S625000x1, .i32⟩
  | .hbm, ⟨13, _⟩ => ⟨S625000x128, .f32⟩
  | .hbm, ⟨14, _⟩ => ⟨S_, .f32⟩
  | .hbm, ⟨15, _⟩ => ⟨S100000x128, .f32⟩
  | .hbm, ⟨16, _⟩ => ⟨S625000x1, .i32⟩
  | .hbm, ⟨17, _⟩ => ⟨S100000x128, .f32⟩
  | .hbm, ⟨18, _⟩ => ⟨S_, .f32⟩
  | .hbm, ⟨19, _⟩ => ⟨S625000, .f32⟩
  | .hbm, ⟨20, _⟩ => ⟨S_, .f32⟩
  | .hbm, ⟨21, _⟩ => ⟨S100000, .f32⟩
  | .hbm, ⟨22, _⟩ => ⟨S625000x1, .i32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S100000x1, .f32⟩
  | .hbm, ⟨27, _⟩ => ⟨S100000x1, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S_, .f32⟩
  | .hbm, ⟨36, _⟩ => ⟨S100000x128, .i1⟩
  | .hbm, ⟨37, _⟩ => ⟨S100000x128, .f32⟩
  | .hbm, ⟨38, _⟩ => ⟨S100000x128, .f32⟩
  | .hbm, ⟨39, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S625000, .i32⟩
  | .hbm, ⟨4, _⟩ => ⟨S625000, .i32⟩
  | .hbm, ⟨5, _⟩ => ⟨S_, .i32⟩
  | .hbm, ⟨6, _⟩ => ⟨S625000, .i32⟩
  | .hbm, ⟨7, _⟩ => ⟨S625000, .i1⟩
  | .hbm, ⟨8, _⟩ => ⟨S_, .i32⟩
  | .hbm, ⟨9, _⟩ => ⟨S625000, .i32⟩
  | .hbm, ⟨10, _⟩ => ⟨S625000, .i32⟩
  | .hbm, ⟨11, _⟩ => ⟨S625000, .i32⟩
  | .hbm, ⟨12, _⟩ => ⟨S625000x1, .i32⟩
  | .hbm, ⟨13, _⟩ => ⟨S625000x128, .f32⟩
  | .hbm, ⟨14, _⟩ => ⟨S_, .f32⟩
  | .hbm, ⟨15, _⟩ => ⟨S100000x128, .f32⟩
  | .hbm, ⟨16, _⟩ => ⟨S625000x1, .i32⟩
  | .hbm, ⟨17, _⟩ => ⟨S100000x128, .f32⟩
  | .hbm, ⟨18, _⟩ => ⟨S_, .f32⟩
  | .hbm, ⟨19, _⟩ => ⟨S625000, .f32⟩
  | .hbm, ⟨20, _⟩ => ⟨S_, .f32⟩
  | .hbm, ⟨21, _⟩ => ⟨S100000, .f32⟩
  | .hbm, ⟨22, _⟩ => ⟨S625000x1, .i32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S100000x1, .f32⟩
  | .hbm, ⟨27, _⟩ => ⟨S100000x1, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S_, .f32⟩
  | .hbm, ⟨36, _⟩ => ⟨S100000x128, .i1⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The dense layer of one graph-convolution step, as one function of its three operands.

  For h with one row of 128 aggregated features per node, a weight matrix W of shape [128, 128] and a bias b of
  length 128, the layer's output at node p and output feature e is

      Σ_{k < 128} h(p, k) · W(e, k)  +  b(e),

  that is h · Wᵀ + b, here on the extended reals with the exact sum and product. Nothing about h is used: it may
  hold any extended reals, and no law beyond the definition is needed to compare two programs that both compute it.
-/
import Idealize.ShloMosaic.PureOps.Ideal
import Idealize.ShloMosaic.Lib.ValueIdx

noncomputable section

namespace Cert.GcnLinear

open Idealize.ShloMosaic Idealize.ShloMosaic.ValueIdx

/-- Entry (p, e) of h · Wᵀ + b, for an h with any number of rows: row p of h against row e of W, plus b(e). -/
def entry {a : ℕ} (h : FVec Ideal ⟨2, ![a, 128]⟩ .f32) (W : FVec Ideal ⟨2, ![128, 128]⟩ .f32)
    (b : FVec Ideal ⟨1, ![128]⟩ .f32) (p : Fin a) (e : Fin 128) : Ideal .f32 :=
  (∑ k : Fin 128, h (ix2 p k) * W (ix2 e k)) + b (ix1 e)

/-- h · Wᵀ + b as an array over all 100000 nodes. -/
def linear (h : FVec Ideal ⟨2, ![100000, 128]⟩ .f32) (W : FVec Ideal ⟨2, ![128, 128]⟩ .f32)
    (b : FVec Ideal ⟨1, ![128]⟩ .f32) : FVec Ideal ⟨2, ![100000, 128]⟩ .f32 :=
  fun i => entry h W b (i 0) (i 1)

/-- The array read at (p, e). -/
theorem linear_apply (h : FVec Ideal ⟨2, ![100000, 128]⟩ .f32) (W : FVec Ideal ⟨2, ![128, 128]⟩ .f32)
    (b : FVec Ideal ⟨1, ![128]⟩ .f32) (p : Fin 100000) (e : Fin 128) :
    linear h W b (ix2 p e) = entry h W b p e := rfl

end Cert.GcnLinear

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibRowLayout.lean ====
/-
  A vector laid along the rows of a matrix, a scalar spread over a matrix, and a flat array read as rows — each
  read at an index.

  A length-b vector v becomes an [a, b] matrix whose every row is v: the kernel does it by a cast to [1, b] and a
  broadcast, the host by two broadcasts along named axes; either way entry (p, c) is v(c). A scalar spread over any
  shape reads the scalar everywhere. A flat array of a*b entries read as a rows of b (or the other way round) keeps
  the row-major position: entry (r, l) of the matrix is entry r*b + l of the flat array.
-/
import Idealize.ShloMosaic.Lib.Pipeline.Value
import Idealize.ShloMosaic.Lib.ValueIdx
import Idealize.ShloMosaic.Lib.ValueLayout

noncomputable section

namespace Cert.RowLayout

open Idealize.ShloMosaic Idealize.ShloMosaic.ValueIdx

variable {α : Type} {a b : ℕ}

/-- The kernel's form: v cast to one row and that row broadcast over a rows reads v(c) at (p, c). -/
theorem rowVector_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The host's form: v broadcast along axis 1 into one row, the row broadcast along both axes over a rows, reads
    v(c) at (p, c). -/
theorem hostRowVector_apply (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) := by
  refine (broadcastInDim_apply ![0, 1] h2 _ (ix2 p c) (ix2 (0 : Fin 1) c) fun ax => ?_).trans ?_
  · match ax with
    | ⟨0, _⟩ => rfl
    | ⟨1, _⟩ =>
      show c.val = if b = 1 then 0 else c.val
      split
      · have := c.isLt; omega
      · rfl
  · refine broadcastInDim_apply ![1] h1 v (ix2 (0 : Fin 1) c) (ix1 c) fun ax => ?_
    match ax with
    | ⟨0, _⟩ =>
      show c.val = if b = 1 then 0 else c.val
      split
      · have := c.isLt; omega
      · rfl

/-- A scalar broadcast over a matrix reads the scalar at every index. -/
theorem hostScalar_apply (v : (⟨0, ![]⟩ : Shape).Idx → α)
    (h : (⟨0, ![]⟩ : Shape).BroadcastsInDim ⟨2, ![a, b]⟩ (![] : Fin 0 → Fin 2)) (j : (⟨2, ![a, b]⟩ : Shape).Idx) :
    broadcastInDim ⟨2, ![a, b]⟩ ![] h v j = v ix0 :=
  broadcastInDim_apply ![] h v j ix0 fun ax => ax.elim0

variable {N : ℕ}

/-- A flat array cast to a rows of b reads, at (r, l), the flat entry at position r*b + l. -/
theorem rows_of_flat_apply (v : (⟨1, ![N]⟩ : Shape).Idx → α) (h : (⟨1, ![N]⟩ : Shape).ShapeCasts ⟨2, ![a, b]⟩)
    (r : Fin a) (l : Fin b) (q : Fin N) (hq : q.val = r.val * b + l.val) :
    shapeCast ⟨2, ![a, b]⟩ v h (ix2 r l) = v (ix1 q) :=
  shapeCast_apply v h _ _ (by
    rw [Shape.rowMajor_val_two, Shape.rowMajor_val_one]
    exact hq)

/-- A matrix of a rows of b cast to a flat array reads, at position r*b + l, the entry (r, l). -/
theorem flat_of_rows_apply (v : (⟨2, ![a, b]⟩ : Shape).Idx → α) (h : (⟨2, ![a, b]⟩ : Shape).ShapeCasts ⟨1, ![N]⟩)
    (r : Fin a) (l : Fin b) (q : Fin N) (hq : q.val = r.val * b + l.val) :
    shapeCast ⟨1, ![N]⟩ v h (ix1 q) = v (ix2 r l) :=
  shapeCast_apply v h _ _ (by
    rw [Shape.rowMajor_val_two, Shape.rowMajor_val_one]
    exact hq.symm)

end Cert.RowLayout

end
-- ==== Proof.KernelPayload.lean ====
/-
  What the kernel body computes from the blocks it loads, read at an index.

  At a grid point the body loads a block x of 10000 rows of the aggregated features, the whole weight matrix W and
  the whole bias b, rounds x and W to a shorter float format (the identity on the extended reals), multiplies x by
  the transpose of W on the matrix unit into a zero accumulator, and adds b laid along the rows. So the stored value
  at row p and column e of the block is  Σ_k x(p, k) · W(e, k) + b(e):  the dense layer's entry for that block.
-/
import proofs.«156687_j55499567399492_1_alg».proof.Proof.Gen.KernelIdeal.Skeleton
import proofs.«156687_j55499567399492_1_alg».proof.Proof.LibColsMatmul
import proofs.«156687_j55499567399492_1_alg».proof.Proof.LibRowLayout
import proofs.«156687_j55499567399492_1_alg».proof.Proof.Spec
import Idealize.ShloMosaic.Lib.Pipeline.Value

noncomputable section

namespace Cert.GcnLinear

open Cert.KernelIdeal Cert.KernelIdeal.Gen Idealize.ShloMosaic Idealize.ShloMosaic.ValueIdx

/-- The body's matrix product contracts axis 1 of the rows block with axis 0 of the transposed weights. -/
theorem kernel_dims : dot_S10000x128_S128x128_S10000x128_1_0_0_1_n_n
    = Cert.ColsMatmul.colsDims dot_S10000x128_S128x128_S10000x128_1_0_0_1_n_n.wf := rfl

/-- The body's stored value at (p, e) is the dense layer's entry (p, e) of the loaded block. -/
theorem payload_apply (x : Vec Ideal S10000x128 .f32) (W : Vec Ideal S128x128 .f32) (b : Vec Ideal S128 .f32)
    (p : Fin 10000) (e : Fin 128) :
    k0_pay1 (F := Ideal) x W b (ix2 p e) = entry x W b p e := by
  unfold k0_pay1 entry
  refine (addf_apply _ _ _).trans ?_
  refine congrArg₂ (· + ·) ?_ ?_
  · refine (Cert.ColsMatmul.cols_matmul _ _ kernel_dims _ _ p e).trans ?_
    refine Finset.sum_congr rfl fun k _ => ?_
    refine congrArg₂ (· * ·) ?_ ?_
    · exact (truncf_apply (ψ := .bf16) (φ := .f32) _ _ _).trans (congrFun (shapeCast_self x _) _)
    · refine (transpose_apply [1, 0] _ _ (ix2 k e) (ix2 e k) fun ax => ?_).trans (truncf_apply (ψ := .bf16) (φ := .f32) _ _ _)
      match ax with
      | ⟨0, _⟩ => rfl
      | ⟨1, _⟩ => rfl
  · exact Cert.RowLayout.rowVector_apply b _ _ p e

end Cert.GcnLinear

end
-- ==== Proof.KernelValue.lean ====
/-
  The kernel's output array after the run is the dense layer of what the region found.

  The grid has 10 points. Point t stages rows 10000·t … 10000·t + 9999 of the features buffer, the whole weight matrix
  and the whole bias, and writes back rows 10000·t … 10000·t + 9999 of the output. By the body's value at an index,
  what point t writes back is block t of  h · Wᵀ + b  (h the features buffer on entry to the region); the 10 row blocks
  cover every index of the output (row r lies in block r / 10000); so the output array after the run is h · Wᵀ + b.
-/
import proofs.«156687_j55499567399492_1_alg».proof.Proof.Gen.KernelIdeal.Value
import proofs.«156687_j55499567399492_1_alg».proof.Proof.KernelPayload

noncomputable section

namespace Cert.GcnLinear

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The offsets of a load or store of a whole rank-2 buffer are all zero, -/
theorem zeros2 : (![0, 0] : Fin 2 → Nat) = fun _ => 0 := funext fun a => by fin_cases a <;> rfl
/-- and so is the one offset of a whole rank-1 buffer. -/
theorem zeros1 : (![0] : Fin 1 → Nat) = fun _ => 0 := funext fun a => by fin_cases a; rfl

/-- The block indices over the grid: the features block and the output block of a point are the same row block, in
    column block 0; the weights and the bias are always block 0; the row block is one of the ten. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) ≤ 9 ∧ win0_3.index t (1 : Fin 2) = 0 :=
  (by decide +kernel : ∀ t : Fin grid0.N, _)

/-- Every one of the ten row blocks of the output is some point's. -/
theorem block_onto : ∀ q : Fin 10, ∃ t : Fin cfg0.N, win0_3.index t = ![q.val, 0] :=
  (by decide +kernel : ∀ q : Fin 10, ∃ t : Fin grid0.N, win0_3.index t = ![q.val, 0])

/-- Over ANY three arrays H, W, B in place of the buffers: the body's value on the blocks that point t stages, read at row p
    and column e of the block, is the dense layer of the whole arrays at the index that (p, e) of point t's output block
    is — row 10000·(row block of t) + p, column e. The staged features block is that same row block of H, the staged
    weights and bias are all of W and B. -/
theorem block_entry (H : S100000x128.Idx → Elt Ideal .f32) (W : S128x128.Idx → Elt Ideal .f32)
    (B : S128.Idx → Elt Ideal .f32) (t : Fin cfg0.N) (p : Fin 10000) (e : Fin 128) :
    k0_pay1 (F := Ideal) (((cfg0.win 0).blk t).view.read (Elt Ideal) H) (((cfg0.win 1).blk t).view.read (Elt Ideal) W)
        (((cfg0.win 2).blk t).view.read (Elt Ideal) B) (ix2 p e)
      = linear H W B (((cfg0.win 3).blk t).view.emb (ix2 p e)) := by
  obtain ⟨e0, e1, e2, e3, e4, e5, e6⟩ := block_indices t
  have hp : p.val < 10000 := p.isLt
  -- the row of the whole array that row p of block t is
  let r : Fin 100000 := ⟨win0_3.index t (0 : Fin 2) * 10000 + p.val, by omega⟩
  have hout : ((cfg0.win 3).blk t).view.emb (ix2 p e) = (ix2 r e : S100000x128.Idx) := funext fun a => Fin.ext (by
    match a with
    | ⟨0, _⟩ => show win0_3.index t (0 : Fin 2) * 10000 + 1 * p.val = win0_3.index t (0 : Fin 2) * 10000 + p.val; omega
    | ⟨1, _⟩ => show win0_3.index t (1 : Fin 2) * 128 + 1 * e.val = e.val; omega)
  have hfeat : ∀ k : Fin 128, ((cfg0.win 0).blk t).view.emb (ix2 p k) = (ix2 r k : S100000x128.Idx) := fun k =>
    funext fun a => Fin.ext (by
      match a with
      | ⟨0, _⟩ => show win0_0.index t (0 : Fin 2) * 10000 + 1 * p.val = win0_3.index t (0 : Fin 2) * 10000 + p.val; omega
      | ⟨1, _⟩ => show win0_0.index t (1 : Fin 2) * 128 + 1 * k.val = k.val; omega)
  have hwts : ∀ k : Fin 128, ((cfg0.win 1).blk t).view.emb (ix2 e k) = (ix2 e k : S128x128.Idx) := fun k =>
    funext fun a => Fin.ext (by
      match a with
      | ⟨0, _⟩ => show win0_1.index t (0 : Fin 2) * 128 + 1 * e.val = e.val; omega
      | ⟨1, _⟩ => show win0_1.index t (1 : Fin 2) * 128 + 1 * k.val = k.val; omega)
  have hbias : ((cfg0.win 2).blk t).view.emb (ix1 e) = (ix1 e : S128.Idx) := funext fun a => Fin.ext (by
    match a with
    | ⟨0, _⟩ => show win0_2.index t (0 : Fin 1) * 128 + 1 * e.val = e.val; omega)
  rw [hout, linear_apply]
  refine (payload_apply (((cfg0.win 0).blk t).view.read (Elt Ideal) H) (((cfg0.win 1).blk t).view.read (Elt Ideal) W)
    (((cfg0.win 2).blk t).view.read (Elt Ideal) B) p e).trans ?_
  unfold entry
  refine congrArg₂ (· + ·) (Finset.sum_congr rfl fun k _ => congrArg₂ (· * ·) ?_ ?_) ?_
  · exact congrArg H (hfeat k)
  · exact congrArg W (hwts k)
  · exact congrArg B hbias

/-- What a point writes back of its output block X is the block of an array G as soon as X agrees with G index by
    index: for any X and G. -/
theorem flush_of_pointwise (t : Fin cfg0.N) (X : Vec Ideal S10000x128 .f32) (G : S100000x128.Idx → Elt Ideal .f32)
    (h : ∀ (p : Fin 10000) (e : Fin 128), X (ix2 p e) = G (((cfg0.win 3).blk t).view.emb (ix2 p e))) :
    (cfg0.win 3).cut (grid0.coords t) X = ((cfg0.win 3).blk t).view.read (Elt Ideal) G := by
  funext j
  obtain ⟨p, e, rfl⟩ : ∃ (p : Fin 10000) (e : Fin 128), j = ix2 p e := ⟨j 0, j 1, eq_ix2 j⟩
  exact h p e

/-- What point t writes back is block t of the dense layer of the buffers as the region finds them. -/
theorem flushed_eq (c : Dev nD) (t : Fin cfg0.N) :
    (dats m 0 c).flushed 3 t
      = ((cfg0.win 3).blk t).view.read (Elt Ideal) (linear (V m c main_v22) (V m c main_arg1) (V m c main_arg2)) := by
  rw [Cert.KernelIdeal.Value.flushed3]
  unfold out0_3
  rw [View.canon_unit_zero zeros2]
  simp only [View.ld_unit_zero (S := S10000x128) zeros2, View.ld_unit_zero (S := S128x128) zeros2,
    View.ld_unit_zero (S := S128) zeros1]
  unfold iblk
  exact flush_of_pointwise t _ _ fun p e => block_entry (V m c main_v22) (V m c main_arg1) (V m c main_arg2) t p e

/-- An index of the output array is in point t's block iff each coordinate is in the block's range on its axis. -/
theorem mem_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v23).slice (win0_3.rect t)).set ↔ _
  rw [View.set_slice_whole, Rect.mem_set_unit]
  exact Iff.rfl

/-- Every index of the output is in some point's block: row r is in row block r / 10000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := block_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- The output array after the run: the dense layer of the features buffer, the weights and the bias as the region
    finds them. -/
theorem final_eq (c : Dev nD) :
    (dats m 0 c).arrAt 3 cfg0.N = linear (V m c main_v22) (V m c main_arg1) (V m c main_arg2) :=
  (dats m 0 c).arrAt_eq_of_cover 3 _ (fun t _ => flushed_eq m c t) covered

end Cert.GcnLinear

end
-- ==== Proof.Aggregated.lean ====
/-
  What the kernel's region finds in its features buffer.

  Before the region the program gathers the source nodes' feature rows along the edges, sums them per destination node,
  counts each node's incoming edges, divides the sums by the counts (at least one), and keeps the quotient where the
  count is positive and zero elsewhere: the mean aggregation. The reference starts with the same operations, one for
  one, on the same arguments. So the buffer the region's first window stages holds exactly the reference's aggregation
  stage of the launch contents of the features and of the two edge-index arrays.

  The operations are never opened. The host operations come in two stretches — the aggregation up to the quotient and
  the test "count > 0", then the selection between the quotient and zero — and each stretch's result is its
  operations' composition, which is the same term as the reference's corresponding stages.
-/
import proofs.«156687_j55499567399492_1_alg».proof.Proof.Gen.KernelIdeal.Frame
import proofs.«156687_j55499567399492_1_alg».proof.Proof.RefReadPatched
import Idealize.ShloMosaic.Lib.StableHlo.Run

noncomputable section

namespace Cert.GcnLinear

open Cert.KernelIdeal Cert.KernelIdeal.Gen Idealize.ShloMosaic Idealize.ShloMosaic.TcCoe Idealize.SL.Sem
open Idealize.ShloMosaic.StableHlo

/-- Running two stretches of host operations one after the other is running their concatenation. -/
theorem after_append {Val : EltTy → Type} (l₁ l₂ : List (HloOp τ sig Val)) (F : Valuation τ sig Val) :
    after (l₁ ++ l₂) F = after l₂ (after l₁ F) := by
  induction l₁ generalizing F with
  | nil => rfl
  | cons op ops ih => exact ih _

/-- The selection stretch, over any contents W of the buffers it reads: the result is the quotient buffer where the
    test buffer (spread along the rows) is set, and the zero buffer's scalar (spread over the array) elsewhere. -/
theorem selection_stretch (W : Valuation τ sig (Elt Ideal)) :
    (after hostOps0_1 W (Proc.devRef .tc main_v22) : (⟨S100000x128, .f32⟩ : BufTy).Contents (Elt Ideal))
      = select (broadcastInDim S100000x128 ![0, 1] bcast_S100000x1_S100000x128_0_1
            (W (Proc.devRef .tc main_v16) : (⟨S100000x1, .i1⟩ : BufTy).Contents (Elt Ideal)))
          (W (Proc.devRef .tc main_v21) : (⟨S100000x128, .f32⟩ : BufTy).Contents (Elt Ideal))
          (broadcastInDim S100000x128 ![] bcast_S_S100000x128
            (id (W (Proc.devRef .tc main_cst_5) : (⟨S_, .f32⟩ : BufTy).Contents (Elt Ideal)))) := by
  simp only [hostOps0_1]
  after_results_simp <;> rfl

variable (m : (ℓ : Loc nD τ sig) → Buf (Elt Ideal) ℓ) (c : Dev nD)

/-- After the first stretch the test buffer holds the reference's "count > 0" stage of the destination indices. -/
theorem test_eq :
    (after hostOps0 (fun b => m (c, b)) (Proc.devRef .tc main_v16) : (⟨S100000x1, .i1⟩ : BufTy).Contents (Elt Ideal))
      = Cert.ReferenceIdeal.ReadP.val_main_v16 (F := Ideal) (m ((c : Thread nD τ).loc main_arg4)) := by
  simp only [hostOps0]
  after_results_simp <;> rfl

/-- After the first stretch the quotient buffer holds the reference's quotient stage of the features and the edge
    indices. -/
theorem quotient_eq :
    (after hostOps0 (fun b => m (c, b)) (Proc.devRef .tc main_v21) : (⟨S100000x128, .f32⟩ : BufTy).Contents (Elt Ideal))
      = Cert.ReferenceIdeal.ReadP.val_main_v21 (F := Ideal) (m ((c : Thread nD τ).loc main_arg0))
          (m ((c : Thread nD τ).loc main_arg3)) (m ((c : Thread nD τ).loc main_arg4)) := by
  simp only [hostOps0]
  after_results_simp <;> rfl

/-- After the first stretch the zero buffer holds the reference's zero scalar. -/
theorem zero_eq :
    (after hostOps0 (fun b => m (c, b)) (Proc.devRef .tc main_cst_5) : (⟨S_, .f32⟩ : BufTy).Contents (Elt Ideal))
      = Cert.ReferenceIdeal.ReadP.val_main_cst_5 (F := Ideal) := by
  simp only [hostOps0]
  after_results_simp <;> rfl

/-- On entry to the region the features buffer is the reference's mean-aggregation stage of the arguments as
    launched. -/
theorem aggregated_eq :
    (V m c main_v22 : (⟨S100000x128, .f32⟩ : BufTy).Contents (Elt Ideal))
      = Cert.ReferenceIdeal.ReadP.val_main_v22 (F := Ideal) (m ((c : Thread nD τ).loc main_arg0))
          (m ((c : Thread nD τ).loc main_arg3)) (m ((c : Thread nD τ).loc main_arg4)) := by
  have hV : (V m c main_v22 : (⟨S100000x128, .f32⟩ : BufTy).Contents (Elt Ideal))
      = after hostOps0_1 (after hostOps0 (fun b => m (c, b))) (Proc.devRef .tc main_v22) := by
    dsimp only [V]
    simp only [List.flatten_cons, List.flatten_nil, List.append_nil]
    rw [after_append]
  rw [hV, selection_stretch, test_eq, quotient_eq, zero_eq]
  rfl

end Cert.GcnLinear

end
-- ==== Proof.RefValue.lean ====
/-
  The reference's result, index by index, is the dense layer of its own mean aggregation.

  The reference ends with  h · Wᵀ + b  written as a transpose of W, a product contracting the last axis of h with the
  first axis of Wᵀ, and the bias broadcast along the rows. Read at node p and feature e that is
  Σ_k h(p, k) · W(e, k) + b(e), where h is the value of the program's mean-aggregation stage (kept whole here: it is
  never opened).
-/
import proofs.«156687_j55499567399492_1_alg».proof.Proof.RefReadPatched
import proofs.«156687_j55499567399492_1_alg».proof.Proof.Spec

noncomputable section

namespace Cert.GcnLinear

open Cert.ReferenceIdeal Cert.ReferenceIdeal.ReadP Idealize.ShloMosaic Idealize.ShloMosaic.ValueIdx

/-- The reference's last stage is the dense layer applied to its aggregation stage, the weights and the bias. -/
theorem reference_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S625000, .i32⟩ : BufTy).Contents (Elt Ideal)) :
    val_main_v27 (F := Ideal) x0 x1 x2 x3 x4 = linear (val_main_v22 (F := Ideal) x0 x3 x4) x1 x2 := by
  funext i
  obtain ⟨p, e, rfl⟩ : ∃ (p : Fin 100000) (e : Fin 128), i = ix2 p e := ⟨i 0, i 1, eq_ix2 i⟩
  rw [val_main_v27_apply, val_main_v24_apply, val_main_v26_apply, val_main_v25_apply, linear_apply, Ideal.addf_def]
  unfold entry
  refine congrArg₂ (· + ·) (Finset.sum_congr rfl fun k _ => ?_) ?_
  · rw [val_main_v23_apply]
    have el : lidx_main_v24 (ix2 p e) k = ix2 p k := funext fun ax => Fin.ext (by
      match ax with
      | ⟨0, _⟩ => rfl
      | ⟨1, _⟩ => rfl)
    have er : idx_main_v23 (ridx_main_v24 (ix2 p e) k) = ix2 e k := funext fun ax => Fin.ext (by
      match ax with
      | ⟨0, _⟩ => rfl
      | ⟨1, _⟩ => rfl)
    rw [el, er]
  · refine congrArg x2 (funext fun ax => Fin.ext ?_)
    match ax with
    | ⟨0, _⟩ => rfl

end Cert.GcnLinear

end
-- ==== Proof.lean ====
/-
  One graph-convolution step with mean aggregation: the kernel program against its reference, on the extended reals.

  Both programs first aggregate: they gather the source nodes' feature rows along the 625000 edges, sum them per
  destination node, count each node's incoming edges, and keep sum / max(count, 1) where the count is positive and zero
  elsewhere — h, one row of 128 features for each of the 100000 nodes. The two programs do this with the same host
  operations on the same arguments, so their h is one and the same term; it is carried whole and never opened.

  Both then apply the dense layer  h · Wᵀ + b.  The reference does it with a transpose, one matrix product and a
  broadcast sum. The kernel program does it in a region of 10 grid points: point t loads rows 10000·t … 10000·t + 9999
  of h, all of W and b, rounds the two matrix operands to a shorter float format (the identity on the extended reals),
  multiplies on the matrix unit into a zero accumulator, adds b along the rows and writes the 10000 rows back. Entry
  (p, e) of either result is  Σ_{k<128} h(p, k) · W(e, k) + b(e):  the same sum of the same products in the same order
  of terms, so no law of the extended reals beyond the definitions is needed, and finiteness of the inputs is not used.

  The three frames are the generated frame certificates (for the reference: its run with the result dropped); the
  idealization rewrote nothing, so it is preserved trivially; the algebraic claim sets the kernel's run — its output
  array block by block, the blocks covering the array — beside the reference's run, both at the dense layer of h.
-/
import proofs.«156687_j55499567399492_1_alg».proof.Defs
import proofs.«156687_j55499567399492_1_alg».proof.Proof.Gen.Kernel
import proofs.«156687_j55499567399492_1_alg».proof.Proof.Gen.Kernel.Skeleton
import proofs.«156687_j55499567399492_1_alg».proof.Proof.Gen.Kernel.Launch
import proofs.«156687_j55499567399492_1_alg».proof.Proof.Gen.Kernel.Points
import proofs.«156687_j55499567399492_1_alg».proof.Proof.Gen.Kernel.Frame
import proofs.«156687_j55499567399492_1_alg».proof.Proof.Gen.KernelIdeal
import proofs.«156687_j55499567399492_1_alg».proof.Proof.Gen.KernelIdeal.Skeleton
import proofs.«156687_j55499567399492_1_alg».proof.Proof.Gen.KernelIdeal.Launch
import proofs.«156687_j55499567399492_1_alg».proof.Proof.Gen.KernelIdeal.Points
import proofs.«156687_j55499567399492_1_alg».proof.Proof.Gen.KernelIdeal.Frame
import proofs.«156687_j55499567399492_1_alg».proof.Proof.Gen.ReferenceIdeal
import proofs.«156687_j55499567399492_1_alg».proof.Proof.Gen.Pre_finite_inputs
import proofs.«156687_j55499567399492_1_alg».proof.Proof.Gen.KernelIdeal.Value
import proofs.«156687_j55499567399492_1_alg».proof.Proof.RefRunPatched
import proofs.«156687_j55499567399492_1_alg».proof.Proof.RefReadPatched
import proofs.«156687_j55499567399492_1_alg».proof.Proof.Spec
import proofs.«156687_j55499567399492_1_alg».proof.Proof.KernelValue
import proofs.«156687_j55499567399492_1_alg».proof.Proof.Aggregated
import proofs.«156687_j55499567399492_1_alg».proof.Proof.RefValue
import Idealize.ShloMosaic.Adequacy
import Idealize.ShloMosaic.Init

noncomputable section

namespace Cert.Proof

open Idealize.ShloMosaic Idealize.ShloMosaic.TcCoe Idealize.SL.Sem Cert.GcnLinear

/-- The word-level kernel program runs, faults nowhere and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The kernel program's run on the extended reals ends with its result array at the dense layer of the mean
    aggregation of the arguments, the arguments unchanged: the output array is the dense layer of the buffers the region
    found (the row blocks cover it), the features buffer it found is the aggregation, and the weights and the bias it
    found are the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c : Thread Cert.KernelIdeal.nD Cert.KernelIdeal.τ).loc Cert.KernelIdeal.main_v23)
          = linear (Cert.ReferenceIdeal.ReadP.val_main_v22 (F := Ideal)
                (m ((c : Thread Cert.KernelIdeal.nD Cert.KernelIdeal.τ).loc Cert.KernelIdeal.main_arg0))
                (m ((c : Thread Cert.KernelIdeal.nD Cert.KernelIdeal.τ).loc Cert.KernelIdeal.main_arg3))
                (m ((c : Thread Cert.KernelIdeal.nD Cert.KernelIdeal.τ).loc Cert.KernelIdeal.main_arg4)))
              (m ((c : Thread Cert.KernelIdeal.nD Cert.KernelIdeal.τ).loc Cert.KernelIdeal.main_arg1))
              (m ((c : Thread Cert.KernelIdeal.nD Cert.KernelIdeal.τ).loc Cert.KernelIdeal.main_arg2))
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
        ∧ r.2.mem ((c : Thread Cert.KernelIdeal.nD Cert.KernelIdeal.τ).loc Cert.KernelIdeal.main_arg4) = m ((c : Thread Cert.KernelIdeal.nD Cert.KernelIdeal.τ).loc Cert.KernelIdeal.main_arg4) :=
  (θ_run Cert.KernelIdeal.defs _ _).mono
    (fun r h c => ⟨(h c).1.trans ((final_eq m c).trans (by
        rw [aggregated_eq m c, Cert.KernelIdeal.Gen.V_main_arg1 m c, Cert.KernelIdeal.Gen.V_main_arg2 m c])), (h c).2⟩)
    (Cert.KernelIdeal.Value.run_blocks m ρ)

/-- From memories that agree on the arguments both programs end with the dense layer of the same aggregation. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v27_eq, reference_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
